-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S100000x64 .f32) (main_arg2 : IVec S1600000 32) (main_arg3 : IVec S1600000 32) (main_arg4 : FVec F S128x64 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S128x128 : Shape := ⟨2, ![128, 128]⟩
abbrev S4000x128 : Shape := ⟨2, ![4000, 128]⟩
abbrev S4000x2 : Shape := ⟨2, ![4000, 2]⟩
abbrev S4000x1 : Shape := ⟨2, ![4000, 1]⟩
abbrev S1600000x128 : Shape := ⟨2, ![1600000, 128]⟩
abbrev S1x64 : Shape := ⟨2, ![1, 64]⟩
abbrev S5000x128 : Shape := ⟨2, ![5000, 128]⟩
abbrev S5000x2 : Shape := ⟨2, ![5000, 2]⟩
abbrev S5000x64 : Shape := ⟨2, ![5000, 64]⟩
abbrev S5000x1 : Shape := ⟨2, ![5000, 1]⟩

abbrev nBuf : Space → Nat
  | .hbm => 52
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S100000x2, .f32⟩
  | .hbm, ⟨34, _⟩ => ⟨S128x128, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x64, .f32⟩
  | .hbm, ⟨51, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x2, .f32⟩
  | .local _ .vmem, ⟨4, _⟩ => ⟨S4000x2, .f32⟩
  | .local _ .vmem, ⟨5, _⟩ => ⟨S4000x128, .bf16⟩
  | .local _ .vmem, ⟨6, _⟩ => ⟨S4000x128, .bf16⟩
  | .local _ .vmem, ⟨7, _⟩ => ⟨S5000x128, .f32⟩
  | .local _ .vmem, ⟨8, _⟩ => ⟨S5000x128, .f32⟩
  | .local _ .vmem, ⟨9, _⟩ => ⟨S5000x2, .f32⟩
  | .local _ .vmem, ⟨10, _⟩ => ⟨S5000x2, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  concatenates_S128x64_S128x64_S128x128_d1 : Shape.Concatenates [S128x64, S128x64] S128x128 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  inb_S4000x2_S4000x1_0_1 : ∀ a, (![0, 1] : Fin 2 → Nat) a + S4000x1.size a ≤ S4000x2.size a
  iota_S4000x128_d1_w32 : S4000x128.Iotas .tc 32 [1]
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S64_S1x64 : S64.ShapeCasts S1x64
  inb_S5000x128_S5000x64_0_0 : ∀ a, (![0, 0] : Fin 2 → Nat) a + S5000x64.size a ≤ S5000x128.size a
  h_S5000x64 : 0 < S5000x64.numel
  shapeCasts_S5000x64_S5000x64 : S5000x64.ShapeCasts S5000x64
  inb_S5000x128_S5000x64_0_64 : ∀ a, (![0, 64] : Fin 2 → Nat) a + S5000x64.size a ≤ S5000x128.size a
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S5000x64_S5000x64_0_0 : ∀ a, (![0, 0] : Fin 2 → Nat) a + S5000x64.size a ≤ S5000x64.size a
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S100000x2.size a
  hwx0_2 : ∀ i : grid0.Coords, EltTy.bits .f32 = 32 ∨ (Rect.block (s := S100000x2) S4000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x64, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run, with every buffer named.

  The program is two kernel launches among stretches of host operations. Its run is the chain of those segments,
  each taking the buffers' contents at one boundary to the contents at the next; the contents at the last boundary
  are what the final memory holds in every buffer that outlives a launch. The frame claim keeps of that only the
  argument arrays; here the whole reading is kept, so that the result array can be read off it too.
-/
import proofs.«163316_j4011499454859_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that outlives a launch
    ends at the contents the chain of segments leaves in it (the last boundary's valuation). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Whole

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.ProjectRegion.lean ====
/-
  The first launch (both projections at once, scaled by the degree norms), as one function of the arrays it finds.

  Its grid has 25 points; point t stages rows 4000·t … 4000·t + 3999 of the features and of the two-column table of
  norms, and the whole 128 × 128 weight table (the two 128 × 64 weight matrices side by side), and writes back those
  rows of a 128-column result: the matrix product of the feature rows with the weight table, column j scaled by the
  row's FIRST norm for j < 64 (a lane-index comparison picks the column of norms) and by its SECOND for j ≥ 64,
    result[n, j] = (Σ k, prev[n, k] · W[k, j]) · (if j < 64 then norm[n, 0] else norm[n, 1]).
  Narrowing the factors and the result to a shorter float format changes nothing over the extended reals, and the
  product accumulates into zero. The blocks written back tile the result array.
-/
import proofs.«163316_j4011499454859_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«163316_j4011499454859_2_alg».proof.Proof.LibColumnBroadcast

set_option maxRecDepth 16384

noncomputable section

namespace Cert.KernelIdeal.Project

open Cert.KernelIdeal Cert.KernelIdeal.Gen Cert.ColumnBroadcast
open Idealize.ShloMosaic Idealize.ShloMosaic.TcCoe Idealize.ShloMosaic.ValueIdx Idealize.SL.Sem
open Idealize.ShloMosaic.Pipeline (Dat)

/-- An array of extended reals, named at that type (so that sums and products of its entries are the extended reals'). -/
abbrev asReals {s : Shape} (f : s.Idx → EReal) : s.Idx → EReal := f

/-! ## The function -/

/-- Entry (n, j) of the result from the features, the weight table and the norms. -/
def entry (A : S100000x128.Idx → EReal) (W : S128x128.Idx → EReal) (nrm : S100000x2.Idx → EReal) (n : Fin 100000) (j : Fin 128) : EReal :=
  (∑ k : Fin 128, A (ix2 n k) * W (ix2 k j)) * (if j.val < 64 then nrm (ix2 n (0 : Fin 2)) else nrm (ix2 n (1 : Fin 2)))

/-- The whole result array. -/
def arr (A : S100000x128.Idx → EReal) (W : S128x128.Idx → EReal) (nrm : S100000x2.Idx → EReal) : S100000x128.Idx → EReal :=
  fun i => entry A W nrm (i 0) (i 1)

/-! ## The body's loads and its arithmetic at one entry of a block -/

theorem hz : (![0, 0] : Fin 2 → Nat) = fun _ => 0 := funext fun a => by fin_cases a <;> rfl

/-- The first column of the staged norms. -/
theorem idx_norm0 (p : Fin 4000) : r0_2.idx (ix2 p (0 : Fin 1)) = ix2 p (0 : Fin 2) := by
  funext a; refine Fin.ext ?_
  match a with
  | ⟨0, _⟩ => show 0 + 1 * p.val = p.val; omega
  | ⟨1, _⟩ => rfl

/-- The second column of the staged norms. -/
theorem idx_norm1 (p : Fin 4000) : r0_3.idx (ix2 p (0 : Fin 1)) = ix2 p (1 : Fin 2) := by
  funext a; refine Fin.ext ?_
  match a with
  | ⟨0, _⟩ => show 0 + 1 * p.val = p.val; omega
  | ⟨1, _⟩ => rfl

/-- The lane-index comparison: the bit is set exactly on the lanes below 64. -/
theorem lane_bit : ∀ j : Fin 128, IntOp.cmpi .slt (BitVec.ofNat 32 j.val) 64#32 = if j.val < 64 then 1#1 else 0#1 := by decide

/-- The left operand's index at output index i and contracted position k: row of i … -/
theorem lhs_row (i : S4000x128.Idx) (k : dot_S4000x128_S128x128_S4000x128_1_0_0_1_n_n.contr.Idx) : (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … and the contracted position. -/
theorem lhs_col (i : S4000x128.Idx) (k : dot_S4000x128_S128x128_S4000x128_1_0_0_1_n_n.contr.Idx) : (dot_S4000x128_S128x128_S4000x128_1_0_0_1_n_n.lhsIdx i k 1).val = (k ⟨0, by decide⟩).val :=
  dot_S4000x128_S128x128_S4000x128_1_0_0_1_n_n.lhsIdx_val_of_single rfl i k
/-- The right operand's index: the contracted position … -/
theorem rhs_row (i : S4000x128.Idx) (k : dot_S4000x128_S128x128_S4000x128_1_0_0_1_n_n.contr.Idx) : (dot_S4000x128_S128x128_S4000x128_1_0_0_1_n_n.rhsIdx i k 0).val = (k ⟨0, by decide⟩).val :=
  dot_S4000x128_S128x128_S4000x128_1_0_0_1_n_n.rhsIdx_val_of_single rfl i k
/-- … and the column of i. -/
theorem rhs_col (i : S4000x128.Idx) (k : dot_S4000x128_S128x128_S4000x128_1_0_0_1_n_n.contr.Idx) : (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix product into zero, at (p, j): the sum over the 128 contracted positions. -/
theorem matmul_entry (x0 : FVec Ideal S4000x128 .bf16) (x1 : FVec Ideal S128x128 .bf16) (p : Fin 4000) (j : Fin 128) :
    matmul (F := Ideal) dot_S4000x128_S128x128_S4000x128_1_0_0_1_n_n none x0 x1 (constant S4000x128 .f32 0#32) (ix2 p j)
      = ∑ k : Fin 128, x0 (ix2 p k) * x1 (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]

/-- What the body stores at (p, j) of its block, from the staged blocks. -/
theorem pay_apply (x0 : Vec Ideal S4000x128 .f32) (x1 : Vec Ideal S128x128 .f32) (x2 : Vec Ideal S4000x2 .f32) (p : Fin 4000) (j : Fin 128) :
    k0_pay1 (F := Ideal) (View.ld x0 r0_0) (View.ld x1 r0_1) (View.ld x2 r0_2) (View.ld x2 r0_3) (ix2 p j)
      = (∑ k : Fin 128, x0 (ix2 p k) * x1 (ix2 k j)) * (if j.val < 64 then x2 (ix2 p (0 : Fin 2)) else x2 (ix2 p (1 : Fin 2))) := by
  unfold k0_pay1
  simp only [shapeCast_self, View.ld_unit_zero (S := S4000x128) hz, View.ld_unit_zero (S := S128x128) hz]
  show matmul (F := Ideal) dot_S4000x128_S128x128_S4000x128_1_0_0_1_n_n none (truncf (F := Ideal) .bf16 x0 bitsLt_bf16_f32) (truncf (F := Ideal) .bf16 x1 bitsLt_bf16_f32)
        (constant S4000x128 .f32 0#32) (ix2 p j)
      * Scalar.select (IntOp.cmpi .slt (iota .tc S4000x128 32 [1] iota_S4000x128_d1_w32 (ix2 p j)) 64#32)
          (broadcastTo S4000x128 (View.ld x2 r0_2) broadcasts_S4000x1_S4000x128 (ix2 p j))
          (broadcastTo S4000x128 (View.ld x2 r0_3) broadcasts_S4000x1_S4000x128 (ix2 p j)) = _
  rw [matmul_entry, iota_single_apply, broadcastTo_a1_ab_apply, broadcastTo_a1_ab_apply]
  show _ * Scalar.select (IntOp.cmpi .slt (BitVec.ofNat 32 j.val) 64#32) (x2 (r0_2.idx (ix2 p (0 : Fin 1)))) (x2 (r0_3.idx (ix2 p (0 : Fin 1)))) = _
  rw [idx_norm0, idx_norm1, lane_bit j]
  congr 1
  by_cases h : j.val < 64
  · rw [if_pos h, if_pos h, select_one]
  · rw [if_neg h, if_neg h, select_zero]

/-! ## The blocks -/

/-- The windows' block indices at a grid point: the row-blocked windows sit at block t, the weight table at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of the function of the arrays as the launch finds them. -/
theorem flushed_eq (c : Dev nD) (t : Fin cfg0.N) :
    (dat0 V c).flushed 3 t = ((cfg0.win 3).blk t).view.read (Elt Ideal) (arr (V c main_arg0) (V c main_v16) (V c main_v15)) := by
  show (cfg0.win 3).cut (grid0.coords t) ((dat0 V c).after 3 t) = _
  rw [after0_3]
  unfold out0_3
  rw [View.canon_unit_zero hz]
  funext y
  obtain ⟨p, j, rfl⟩ : ∃ (p : Fin 4000) (j : Fin 128), y = ix2 p j := ⟨y 0, y 1, eq_ix2 y⟩
  refine (pay_apply (iblk0 V c 0 t) (iblk0 V c 1 t) (iblk0 V c 2 t) p j).trans ?_
  obtain ⟨e00, e01, e10, e11, e20, e21, e30, e31⟩ := index_facts t
  have ht : t.val < 25 := t.isLt
  have hn : t.val * 4000 + p.val < 100000 := by have := p.isLt; omega
  show (∑ k : Fin 128, asReals (s := S100000x128) (V c main_arg0) (((cfg0.win 0).blk t).view.emb (ix2 p k))
          * asReals (s := S128x128) (V c main_v16) (((cfg0.win 1).blk t).view.emb (ix2 k j)))
        * (if j.val < 64 then asReals (s := S100000x2) (V c main_v15) (((cfg0.win 2).blk t).view.emb (ix2 p (0 : Fin 2)))
            else asReals (s := S100000x2) (V c main_v15) (((cfg0.win 2).blk t).view.emb (ix2 p (1 : Fin 2))))
      = arr (V c main_arg0) (V c main_v16) (V c main_v15) (((cfg0.win 3).blk t).view.emb (ix2 p j))
  have h0 : ∀ k : Fin 128, ((cfg0.win 0).blk t).view.emb (ix2 p k) = ix2 (⟨t.val * 4000 + p.val, hn⟩ : Fin 100000) k := fun k => by
    funext a; apply Fin.ext
    match a with
    | ⟨0, _⟩ => show win0_0.index t (0 : Fin 2) * 4000 + 1 * p.val = t.val * 4000 + p.val; rw [e00]; omega
    | ⟨1, _⟩ => show win0_0.index t (1 : Fin 2) * 128 + 1 * k.val = k.val; rw [e01]; omega
  have h1 : ∀ k : Fin 128, ((cfg0.win 1).blk t).view.emb (ix2 k j) = ix2 k j := fun k => by
    funext a; apply Fin.ext
    match a with
    | ⟨0, _⟩ => show win0_1.index t (0 : Fin 2) * 128 + 1 * k.val = k.val; rw [e10]; omega
    | ⟨1, _⟩ => show win0_1.index t (1 : Fin 2) * 128 + 1 * j.val = j.val; rw [e11]; omega
  have h2a : ((cfg0.win 2).blk t).view.emb (ix2 p (0 : Fin 2)) = ix2 (⟨t.val * 4000 + p.val, hn⟩ : Fin 100000) (0 : Fin 2) := by
    funext a; apply Fin.ext
    match a with
    | ⟨0, _⟩ => show win0_2.index t (0 : Fin 2) * 4000 + 1 * p.val = t.val * 4000 + p.val; rw [e20]; omega
    | ⟨1, _⟩ => show win0_2.index t (1 : Fin 2) * 2 + 1 * 0 = 0; rw [e21]
  have h2b : ((cfg0.win 2).blk t).view.emb (ix2 p (1 : Fin 2)) = ix2 (⟨t.val * 4000 + p.val, hn⟩ : Fin 100000) (1 : Fin 2) := by
    funext a; apply Fin.ext
    match a with
    | ⟨0, _⟩ => show win0_2.index t (0 : Fin 2) * 4000 + 1 * p.val = t.val * 4000 + p.val; rw [e20]; omega
    | ⟨1, _⟩ => show win0_2.index t (1 : Fin 2) * 2 + 1 * 1 = 1; rw [e21]
  have h3 : ((cfg0.win 3).blk t).view.emb (ix2 p j) = ix2 (⟨t.val * 4000 + p.val, hn⟩ : Fin 100000) j := by
    funext a; apply Fin.ext
    match a with
    | ⟨0, _⟩ => show win0_3.index t (0 : Fin 2) * 4000 + 1 * p.val = t.val * 4000 + p.val; rw [e30]; omega
    | ⟨1, _⟩ => show win0_3.index t (1 : Fin 2) * 128 + 1 * j.val = j.val; rw [e31]; omega
  rw [h2a, h2b, h3]
  simp only [h0, h1]
  rfl

/-- An index of the result array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v17).slice (win0_3.rect t)).set ↔ _
  rw [View.set_slice_whole, Rect.mem_set_unit]
  exact Iff.rfl

/-- Row n is written back by point n / 4000: the blocks tile the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 4000 < 25 := by omega
  refine ⟨⟨(i 0).val / 4000, hlt⟩, flush0_3 _, ?_⟩
  obtain ⟨-, -, -, -, -, -, e30, e31⟩ := index_facts ⟨(i 0).val / 4000, hlt⟩
  rw [mem_blk]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, hlt⟩ (1 : Fin 2) * 128 ≤ (i 1).val
      ∧ (i 1).val < win0_3.index ⟨(i 0).val / 4000, hlt⟩ (1 : Fin 2) * 128 + 128
    rw [e31]; omega

/-- THE RESULT ARRAY after the launch: the function of the arrays the launch found. -/
theorem final (c : Dev nD) :
    (dat0 V c).arrAt 3 cfg0.N = arr (V c main_arg0) (V c main_v16) (V c main_v15) :=
  (dat0 V c).arrAt_eq_of_cover 3 (arr (V c main_arg0) (V c main_v16) (V c main_v15)) (fun t _ => flushed_eq V c t) cover

end Cert.KernelIdeal.Project

end
-- ==== Proof.HostSide.lean ====
/-
  What the host operations of the kernel program put in the arrays the two launches read.

  Before the first launch: the degree norm of an edge column x is (max 1 (number of edges whose number is n)) ^ (-1/2)
  at node n (degNorm x: the count is an accumulating scatter of ones); the two norms, of the destination column and of
  the source column, are set side by side as the two columns of one table (normsTable), and the two weight matrices
  side by side as one 128 × 128 table (weightTable). Between the launches: the rows of the first launch's result are
  gathered along the source column (negative numbers first wrapped by the table's height) and summed into the
  destination rows (aggregate), and the bias vector is viewed as one row. No operation writes an argument, and the
  second launch finds the norms table as the first left it, which is as it found it.
-/
import proofs.«163316_j4011499454859_2_alg».proof.Proof.Gen.KernelIdeal.Frame
import proofs.«163316_j4011499454859_2_alg».proof.Proof.ProjectRegion
import Idealize.ShloMosaic.Lib.StableHlo.Run
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.StableHlo Idealize.SL.Sem
open Idealize.ShloMosaic.Pipeline (Dat)

/-! ## The terms -/

/-- The degree norm of an edge column. -/
def degNorm (x : (⟨S1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 x)
        (broadcastInDim S1600000 ![] bcast_S_S1600000 (constant (F := Ideal) S_ .f32 0x3F800000#32))))
    (broadcastInDim S100000 ![] bcast_S_S100000 (constant (F := Ideal) S_ .f32 0xBF000000#32))

/-- The two norms as the two columns of one table: the destination column's first. -/
def normsTable (x2 x3 : (⟨S1600000, .i32⟩ : BufTy).Contents (Elt Ideal)) : (⟨S100000x2, .f32⟩ : BufTy).Contents (Elt Ideal) :=
  concatenate S100000x2 1
    [⟨S100000x1, broadcastInDim S100000x1 ![0] bcast_S100000_S100000x1_0 (degNorm x3)⟩,
     ⟨S100000x1, broadcastInDim S100000x1 ![0] bcast_S100000_S100000x1_0 (degNorm x2)⟩]
    concatenates_S100000x1_S100000x1_S100000x2_d1

/-- The two weight matrices side by side. -/
def weightTable (x4 x5 : (⟨S128x64, .f32⟩ : BufTy).Contents (Elt Ideal)) : (⟨S128x128, .f32⟩ : BufTy).Contents (Elt Ideal) :=
  concatenate S128x128 1 [⟨S128x64, x4⟩, ⟨S128x64, x5⟩] concatenates_S128x64_S128x64_S128x128_d1

/-- The source column, negative numbers wrapped, as a column of start indices. -/
def srcCol (x2 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x2 (broadcastInDim S1600000 ![] bcast_S_S1600000 (constantI S_ 32 0#32)))
      (addi x2 (broadcastInDim S1600000 ![] bcast_S_S1600000 (constantI S_ 32 100000#32))) x2)

/-- The destination column as a column of scatter indices. -/
def dstCol (x3 : (⟨S1600000, .i32⟩ : BufTy).Contents (Elt Ideal)) : (⟨S1600000x1, .i32⟩ : BufTy).Contents (Elt Ideal) :=
  broadcastInDim S1600000x1 ![0] bcast_S1600000_S1600000x1_0 x3

/-- Rows gathered along the source column and summed into the destination rows. -/
def aggregate (Y : (⟨S100000x128, .bf16⟩ : BufTy).Contents (Elt Ideal)) (x2 x3 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (dstCol x3)
    (extf (F := Ideal) .f32 (Host.gather gather_S100000x128_S1600000x1_S1600000x128_1_0_n_n_0_1_1128 Y (srcCol x2)) bitsLt_bf16_f32)

/-- The bias vector as one row. -/
def biasRow (x6 : (⟨S64, .f32⟩ : BufTy).Contents (Elt Ideal)) : (⟨S1x64, .f32⟩ : BufTy).Contents (Elt Ideal) :=
  shapeCast S1x64 x6 shapeCasts_S64_S1x64

/-! ## The stretch between the launches, from any contents -/

variable (W : Valuation τ sig (Elt Ideal))

theorem between_agg : StableHlo.after (hostOps1 (F := Ideal)) W (Proc.devRef .tc main_v28)
    = aggregate (W (Proc.devRef .tc main_v17)) (W (Proc.devRef .tc main_arg2)) (W (Proc.devRef .tc main_arg3)) := by
  after_results
  rfl

theorem between_bias : StableHlo.after (hostOps1 (F := Ideal)) W (Proc.devRef .tc main_v29) = biasRow (W (Proc.devRef .tc main_arg6)) := by
  after_results
  rfl

theorem between_norms : StableHlo.after (hostOps1 (F := Ideal)) W (Proc.devRef .tc main_v15) = W (Proc.devRef .tc main_v15) := by
  after_results

/-! ## The stretches before the first launch, from the launch memory -/

variable (m : (ℓ : Loc nD τ sig) → Buf (Elt Ideal) ℓ) (ρ : Dev nD → PrngReg)

theorem before_arg0 (c : Dev nD) : W5 m ρ c (Proc.devRef .tc main_arg0) = m ((c : Thread nD τ).loc main_arg0) := by
  after_results
theorem before_arg2 (c : Dev nD) : W5 m ρ c (Proc.devRef .tc main_arg2) = m ((c : Thread nD τ).loc main_arg2) := by
  after_results
theorem before_arg3 (c : Dev nD) : W5 m ρ c (Proc.devRef .tc main_arg3) = m ((c : Thread nD τ).loc main_arg3) := by
  after_results
theorem before_arg6 (c : Dev nD) : W5 m ρ c (Proc.devRef .tc main_arg6) = m ((c : Thread nD τ).loc main_arg6) := by
  after_results

theorem before_weights (c : Dev nD) : W5 m ρ c (Proc.devRef .tc main_v16)
    = weightTable (m ((c : Thread nD τ).loc main_arg4)) (m ((c : Thread nD τ).loc main_arg5)) := by
  after_results
  rfl

/-! ### The norms table, stretch by stretch (each stretch from any contents) -/

/-- The number of edges with each number, as the accumulating scatter of ones spells it. -/
def edgeCount (x : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x)
    (broadcastInDim S1600000 ![] bcast_S_S1600000 (constant (F := Ideal) S_ .f32 0x3F800000#32))

theorem first_in : StableHlo.after (hostOps0 (F := Ideal)) W (Proc.devRef .tc main_v3) = edgeCount (W (Proc.devRef .tc main_arg3)) := by
  after_results
  rfl
theorem first_out : StableHlo.after (hostOps0 (F := Ideal)) W (Proc.devRef .tc main_v6) = edgeCount (W (Proc.devRef .tc main_arg2)) := by
  after_results
  rfl
theorem first_one : StableHlo.after (hostOps0 (F := Ideal)) W (Proc.devRef .tc main_cst_2) = constant (F := Ideal) S_ .f32 0x3F800000#32 := by
  after_results

theorem clip_in : StableHlo.after (hostOps0_1 (F := Ideal)) W (Proc.devRef .tc main_v7)
    = maximumf (F := Ideal) (φ := .f32) (broadcastInDim S100000 ![] bcast_S_S100000 (id (W (Proc.devRef .tc main_cst_2) : (⟨S_, .f32⟩ : BufTy).Contents (Elt Ideal))))
        (W (Proc.devRef .tc main_v3)) := by
  after_results
  rfl
theorem clip_in_keep : StableHlo.after (hostOps0_1 (F := Ideal)) W (Proc.devRef .tc main_v6) = W (Proc.devRef .tc main_v6) := by
  after_results

theorem power_in : StableHlo.after (hostOps0_2 (F := Ideal)) W (Proc.devRef .tc main_v9)
    = Host.powf (F := Ideal) (W (Proc.devRef .tc main_v7)) (broadcastInDim S100000 ![] bcast_S_S100000 (constant (F := Ideal) S_ .f32 0xBF000000#32)) := by
  after_results
theorem power_in_one : StableHlo.after (hostOps0_2 (F := Ideal)) W (Proc.devRef .tc main_cst_4) = constant (F := Ideal) S_ .f32 0x3F800000#32 := by
  after_results
theorem power_in_keep : StableHlo.after (hostOps0_2 (F := Ideal)) W (Proc.devRef .tc main_v6) = W (Proc.devRef .tc main_v6) := by
  after_results

theorem clip_out : StableHlo.after (hostOps0_3 (F := Ideal)) W (Proc.devRef .tc main_v10)
    = maximumf (F := Ideal) (φ := .f32) (broadcastInDim S100000 ![] bcast_S_S100000 (id (W (Proc.devRef .tc main_cst_4) : (⟨S_, .f32⟩ : BufTy).Contents (Elt Ideal))))
        (W (Proc.devRef .tc main_v6)) := by
  after_results
  rfl
theorem clip_out_keep : StableHlo.after (hostOps0_3 (F := Ideal)) W (Proc.devRef .tc main_v9) = W (Proc.devRef .tc main_v9) := by
  after_results

theorem last_norms : StableHlo.after (hostOps0_4 (F := Ideal)) W (Proc.devRef .tc main_v15)
    = concatenate S100000x2 1
        [⟨S100000x1, broadcastInDim S100000x1 ![0] bcast_S100000_S100000x1_0 (W (Proc.devRef .tc main_v9))⟩,
         ⟨S100000x1, broadcastInDim S100000x1 ![0] bcast_S100000_S100000x1_0
            (Host.powf (F := Ideal) (W (Proc.devRef .tc main_v10)) (broadcastInDim S100000 ![] bcast_S_S100000 (constant (F := Ideal) S_ .f32 0xBF000000#32)))⟩]
        concatenates_S100000x1_S100000x1_S100000x2_d1 := by
  after_results

/-- The destination column's norm, where the last stretch finds it. -/
theorem norm_in (c : Dev nD) : W4 m ρ c (Proc.devRef .tc main_v9) = degNorm (m ((c : Thread nD τ).loc main_arg3)) := by
  show StableHlo.after (hostOps0_3 (F := Ideal)) (W3 m ρ c) (Proc.devRef .tc main_v9) = _
  rw [clip_out_keep]
  show StableHlo.after (hostOps0_2 (F := Ideal)) (W2 m ρ c) (Proc.devRef .tc main_v9) = _
  rw [power_in]
  show Host.powf (F := Ideal) (StableHlo.after (hostOps0_1 (F := Ideal)) (W1 m ρ c) (Proc.devRef .tc main_v7)) _ = _
  rw [clip_in]
  show Host.powf (F := Ideal) (maximumf (F := Ideal) (φ := .f32) (broadcastInDim S100000 ![] bcast_S_S100000
      (id (StableHlo.after (hostOps0 (F := Ideal)) (W0 m ρ c) (Proc.devRef .tc main_cst_2))))
      (StableHlo.after (hostOps0 (F := Ideal)) (W0 m ρ c) (Proc.devRef .tc main_v3))) _ = _
  rw [first_one, first_in]
  rfl

/-- The source column's clipped degree, where the last stretch finds it. -/
theorem clipped_out (c : Dev nD) : W4 m ρ c (Proc.devRef .tc main_v10)
    = maximumf (F := Ideal) (φ := .f32) (broadcastInDim S100000 ![] bcast_S_S100000 (id (constant (F := Ideal) S_ .f32 0x3F800000#32)))
        (edgeCount (m ((c : Thread nD τ).loc main_arg2))) := by
  show StableHlo.after (hostOps0_3 (F := Ideal)) (W3 m ρ c) (Proc.devRef .tc main_v10) = _
  rw [clip_out]
  show maximumf (F := Ideal) (φ := .f32) (broadcastInDim S100000 ![] bcast_S_S100000
      (id (StableHlo.after (hostOps0_2 (F := Ideal)) (W2 m ρ c) (Proc.devRef .tc main_cst_4))))
      (StableHlo.after (hostOps0_2 (F := Ideal)) (W2 m ρ c) (Proc.devRef .tc main_v6)) = _
  rw [power_in_one, power_in_keep]
  show maximumf (F := Ideal) (φ := .f32) _ (StableHlo.after (hostOps0_1 (F := Ideal)) (W1 m ρ c) (Proc.devRef .tc main_v6)) = _
  rw [clip_in_keep]
  show maximumf (F := Ideal) (φ := .f32) _ (StableHlo.after (hostOps0 (F := Ideal)) (W0 m ρ c) (Proc.devRef .tc main_v6)) = _
  rw [first_out]

theorem before_norms (c : Dev nD) : W5 m ρ c (Proc.devRef .tc main_v15)
    = normsTable (m ((c : Thread nD τ).loc main_arg2)) (m ((c : Thread nD τ).loc main_arg3)) := by
  show StableHlo.after (hostOps0_4 (F := Ideal)) (W4 m ρ c) (Proc.devRef .tc main_v15) = _
  rw [last_norms, norm_in, clipped_out]
  rfl

end Cert.KernelIdeal.HostSide

end
-- ==== Proof.CombineRegion.lean ====
/-
  The second launch (scale, bias, add, clamp), as one function of the arrays it finds.

  Its grid has 20 points; point t stages rows 5000·t … 5000·t + 4999 of the aggregate table C (128 columns: the
  residual branch's aggregate in columns 0 … 63, the convolution's in columns 64 … 127) and of the two-column table of
  degree norms, and the whole bias row, and writes back those rows of the result:
    result[n, q] = max (norm[n, 0] · (C[n, q] + C[n, 64 + q]) + bias[0, q]) 0.
  The blocks written back tile the result array, so after the launch the array IS that function, whatever it held.
-/
import proofs.«163316_j4011499454859_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«163316_j4011499454859_2_alg».proof.Proof.LibColumnBroadcast

set_option maxRecDepth 16384

noncomputable section

namespace Cert.KernelIdeal.Combine

open Cert.KernelIdeal Cert.KernelIdeal.Gen Cert.ColumnBroadcast
open Idealize.ShloMosaic Idealize.ShloMosaic.TcCoe Idealize.ShloMosaic.ValueIdx Idealize.SL.Sem
open Idealize.ShloMosaic.Pipeline (Dat)

/-- An array of extended reals, named at that type (so that sums and products of its entries are the extended reals'). -/
abbrev asReals {s : Shape} (f : s.Idx → EReal) : s.Idx → EReal := f

/-! ## The function -/

/-- Entry (n, q) of the result from the aggregate table, the norms and the bias row. -/
def entry (C : S100000x128.Idx → EReal) (nrm : S100000x2.Idx → EReal) (b : S1x64.Idx → EReal) (n : Fin 100000) (q : Fin 64) : EReal :=
  max (nrm (ix2 n (0 : Fin 2)) * (C (ix2 n (⟨q.val, by omega⟩ : Fin 128)) + C (ix2 n (⟨64 + q.val, by omega⟩ : Fin 128)))
      + b (ix2 (0 : Fin 1) q)) (Ideal.ofBits .f32 0#32)

/-- The whole result array. -/
def arr (C : S100000x128.Idx → EReal) (nrm : S100000x2.Idx → EReal) (b : S1x64.Idx → EReal) : S100000x64.Idx → EReal :=
  fun i => entry C nrm b (i 0) (i 1)

/-! ## The body's loads and its arithmetic at one entry of a block -/

theorem hz : (![0, 0] : Fin 2 → Nat) = fun _ => 0 := funext fun a => by fin_cases a <;> rfl

/-- The left half of the staged aggregate rows. -/
theorem idx_left (p : Fin 5000) (q : Fin 64) : r1_0.idx (ix2 p q) = ix2 p (⟨q.val, by omega⟩ : Fin 128) := by
  funext a; refine Fin.ext ?_
  match a with
  | ⟨0, _⟩ => show 0 + 1 * p.val = p.val; omega
  | ⟨1, _⟩ => show 0 + 1 * q.val = q.val; omega

/-- The right half: the same rows, 64 columns further. -/
theorem idx_right (p : Fin 5000) (q : Fin 64) : r1_1.idx (ix2 p q) = ix2 p (⟨64 + q.val, by omega⟩ : Fin 128) := by
  funext a; refine Fin.ext ?_
  match a with
  | ⟨0, _⟩ => show 0 + 1 * p.val = p.val; omega
  | ⟨1, _⟩ => show 64 + 1 * q.val = 64 + q.val; omega

/-- The first column of the staged norms. -/
theorem idx_norm (p : Fin 5000) : r1_2.idx (ix2 p (0 : Fin 1)) = ix2 p (0 : Fin 2) := by
  funext a; refine Fin.ext ?_
  match a with
  | ⟨0, _⟩ => show 0 + 1 * p.val = p.val; omega
  | ⟨1, _⟩ => rfl

/-- The bias row, whole. -/
theorem idx_bias (q : Fin 64) : r1_3.idx (ix2 (0 : Fin 1) q) = ix2 (0 : Fin 1) q := by
  funext a; refine Fin.ext ?_
  match a with
  | ⟨0, _⟩ => rfl
  | ⟨1, _⟩ => show 0 + 1 * q.val = q.val; omega

/-- What the body stores at (p, q) of its block, from the staged blocks. -/
theorem pay_apply (x0 : Vec Ideal S5000x128 .f32) (x1 : Vec Ideal S5000x2 .f32) (x2 : Vec Ideal S1x64 .f32) (p : Fin 5000) (q : Fin 64) :
    k1_pay1 (F := Ideal) (View.ld x0 r1_0) (View.ld x0 r1_1) (View.ld x1 r1_2) (View.ld x2 r1_3) (ix2 p q)
      = max (x1 (ix2 p (0 : Fin 2)) * (x0 (ix2 p (⟨q.val, by omega⟩ : Fin 128)) + x0 (ix2 p (⟨64 + q.val, by omega⟩ : Fin 128)))
          + x2 (ix2 (0 : Fin 1) q)) (Ideal.ofBits .f32 0#32) := by
  unfold k1_pay1
  simp only [shapeCast_self]
  show max (broadcastTo S5000x64 (View.ld x1 r1_2) broadcasts_S5000x1_S5000x64 (ix2 p q)
        * (x0 (r1_0.idx (ix2 p q)) + x0 (r1_1.idx (ix2 p q)))
      + broadcastTo S5000x64 (View.ld x2 r1_3) broadcasts_S1x64_S5000x64 (ix2 p q)) (Ideal.ofBits .f32 0#32) = _
  rw [broadcastTo_a1_ab_apply, broadcastTo_1b_ab_apply, idx_left, idx_right]
  show max (x1 (r1_2.idx (ix2 p (0 : Fin 1))) * _ + x2 (r1_3.idx (ix2 (0 : Fin 1) q))) _ = _
  rw [idx_norm, idx_bias]

/-! ## The blocks -/

/-- The windows' block indices at a grid point: the row-blocked windows sit at block t, the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of the function of the arrays as the launch finds them. -/
theorem flushed_eq (c : Dev nD) (t : Fin cfg1.N) :
    (dat1 V c).flushed 3 t = ((cfg1.win 3).blk t).view.read (Elt Ideal) (arr (V c main_v28) (V c main_v15) (V c main_v29)) := by
  show (cfg1.win 3).cut (grid1.coords t) ((dat1 V c).after 3 t) = _
  rw [after1_3]
  unfold out1_3
  rw [View.canon_unit_zero hz]
  funext y
  obtain ⟨p, q, rfl⟩ : ∃ (p : Fin 5000) (q : Fin 64), y = ix2 p q := ⟨y 0, y 1, eq_ix2 y⟩
  refine (pay_apply (iblk1 V c 0 t) (iblk1 V c 1 t) (iblk1 V c 2 t) p q).trans ?_
  obtain ⟨e00, e01, e10, e11, e20, e21, e30, e31⟩ := index_facts t
  have ht : t.val < 20 := t.isLt
  have hn : t.val * 5000 + p.val < 100000 := by have := p.isLt; omega
  show max (asReals (s := S100000x2) (V c main_v15) (((cfg1.win 1).blk t).view.emb (ix2 p (0 : Fin 2)))
        * (asReals (s := S100000x128) (V c main_v28) (((cfg1.win 0).blk t).view.emb (ix2 p (⟨q.val, by omega⟩ : Fin 128)))
          + asReals (s := S100000x128) (V c main_v28) (((cfg1.win 0).blk t).view.emb (ix2 p (⟨64 + q.val, by omega⟩ : Fin 128))))
        + asReals (s := S1x64) (V c main_v29) (((cfg1.win 2).blk t).view.emb (ix2 (0 : Fin 1) q))) (Ideal.ofBits .f32 0#32)
      = arr (V c main_v28) (V c main_v15) (V c main_v29) (((cfg1.win 3).blk t).view.emb (ix2 p q))
  have h1 : ((cfg1.win 1).blk t).view.emb (ix2 p (0 : Fin 2)) = ix2 (⟨t.val * 5000 + p.val, hn⟩ : Fin 100000) (0 : Fin 2) := by
    funext a; apply Fin.ext
    match a with
    | ⟨0, _⟩ => show win1_1.index t (0 : Fin 2) * 5000 + 1 * p.val = t.val * 5000 + p.val; rw [e10]; omega
    | ⟨1, _⟩ => show win1_1.index t (1 : Fin 2) * 2 + 1 * 0 = 0; rw [e11]
  have h0a : ((cfg1.win 0).blk t).view.emb (ix2 p (⟨q.val, by omega⟩ : Fin 128))
      = ix2 (⟨t.val * 5000 + p.val, hn⟩ : Fin 100000) (⟨q.val, by omega⟩ : Fin 128) := by
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  have h0b : ((cfg1.win 0).blk t).view.emb (ix2 p (⟨64 + q.val, by omega⟩ : Fin 128))
      = ix2 (⟨t.val * 5000 + p.val, hn⟩ : Fin 100000) (⟨64 + q.val, by omega⟩ : Fin 128) := by
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * (64 + q.val) = 64 + q.val; rw [e01]; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; rw [e20]
    | ⟨1, _⟩ => show win1_2.index t (1 : Fin 2) * 64 + 1 * q.val = q.val; rw [e21]; omega
  have h3 : ((cfg1.win 3).blk t).view.emb (ix2 p q) = ix2 (⟨t.val * 5000 + p.val, hn⟩ : Fin 100000) q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 64 + 1 * q.val = q.val; rw [e31]; omega
  rw [h1, h0a, h0b, h2, h3]
  rfl

/-- An index of the result array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v30).slice (win1_3.rect t)).set ↔ _
  rw [View.set_slice_whole, Rect.mem_set_unit]
  exact Iff.rfl

/-- Row n is written back by point n / 5000: the blocks tile the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 5000 < 20 := by omega
  refine ⟨⟨(i 0).val / 5000, hlt⟩, flush1_3 _, ?_⟩
  obtain ⟨-, -, -, -, -, -, e30, e31⟩ := index_facts ⟨(i 0).val / 5000, hlt⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e31]; omega

/-- THE RESULT ARRAY after the launch: the function of the arrays the launch found. -/
theorem final (c : Dev nD) :
    (dat1 V c).arrAt 3 cfg1.N = arr (V c main_v28) (V c main_v15) (V c main_v29) :=
  (dat1 V c).arrAt_eq_of_cover 3 (arr (V c main_v28) (V c main_v15) (V c main_v29)) (fun t _ => flushed_eq V c t) cover

end Cert.KernelIdeal.Combine

end
-- ==== Proof.KernelResult.lean ====
/-
  The kernel program's result array as one function of its argument arrays, and its run stated with that result.

  The contents at the last boundary of the run give the result buffer as what the second launch leaves; the second
  launch's arrays are what the host stretch between the launches makes of the first launch's result and of the
  arguments; the first launch's arrays are what the stretches before it make of the arguments. Substituting inwards, the
  result is the composite named resultArr below.
-/
import proofs.«163316_j4011499454859_2_alg».proof.Proof.KernelRun
import proofs.«163316_j4011499454859_2_alg».proof.Proof.HostSide
import proofs.«163316_j4011499454859_2_alg».proof.Proof.ProjectRegion
import proofs.«163316_j4011499454859_2_alg».proof.Proof.CombineRegion

set_option maxRecDepth 16384

noncomputable section

namespace Cert.KernelIdeal.Result

open Cert.KernelIdeal Cert.KernelIdeal.Gen Cert.KernelIdeal.HostSide
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- The result array as a function of the argument arrays in memory m, on device c. -/
def resultArr (c : Dev nD) : Buf (Elt Ideal) ((c.tc : Thread nD τ).loc main_v30) :=
  Combine.arr
    (aggregate
      (Project.arr (m ((c : Thread nD τ).loc main_arg0))
        (weightTable (m ((c : Thread nD τ).loc main_arg4)) (m ((c : Thread nD τ).loc main_arg5)))
        (normsTable (m ((c : Thread nD τ).loc main_arg2)) (m ((c : Thread nD τ).loc main_arg3))))
      (m ((c : Thread nD τ).loc main_arg2)) (m ((c : Thread nD τ).loc main_arg3)))
    (normsTable (m ((c : Thread nD τ).loc main_arg2)) (m ((c : Thread nD τ).loc main_arg3)))
    (biasRow (m ((c : Thread nD τ).loc main_arg6)))

/-- After the first launch its result array holds the scaled projections of the arguments. -/
theorem first_result (c : Dev nD) : W6 m ρ c (Proc.devRef .tc main_v17)
    = Project.arr (m ((c : Thread nD τ).loc main_arg0))
        (weightTable (m ((c : Thread nD τ).loc main_arg4)) (m ((c : Thread nD τ).loc main_arg5)))
        (normsTable (m ((c : Thread nD τ).loc main_arg2)) (m ((c : Thread nD τ).loc main_arg3))) := by
  refine (W6_arr m ρ c 3).trans ((Project.final (V5 m ρ) c).trans ?_)
  show Project.arr (W5 m ρ c (Proc.devRef .tc main_arg0)) (W5 m ρ c (Proc.devRef .tc main_v16)) (W5 m ρ c (Proc.devRef .tc main_v15)) = _
  rw [before_arg0, before_weights, before_norms]

/-- The first launch only reads the norms table. -/
theorem first_norms (c : Dev nD) : W6 m ρ c (Proc.devRef .tc main_v15)
    = normsTable (m ((c : Thread nD τ).loc main_arg2)) (m ((c : Thread nD τ).loc main_arg3)) :=
  (W6_arr m ρ c 2).trans (((dat0 (V5 m ρ) c).arrAt_in 2 rfl _).trans ((A_eq0 (V5 m ρ) c 2).trans (before_norms m ρ c)))

theorem first_arg2 (c : Dev nD) : W6 m ρ c (Proc.devRef .tc main_arg2) = m ((c : Thread nD τ).loc main_arg2) :=
  (W6_of_ne m ρ c main_arg2 (by decide)).trans (before_arg2 m ρ c)
theorem first_arg3 (c : Dev nD) : W6 m ρ c (Proc.devRef .tc main_arg3) = m ((c : Thread nD τ).loc main_arg3) :=
  (W6_of_ne m ρ c main_arg3 (by decide)).trans (before_arg3 m ρ c)
theorem first_arg6 (c : Dev nD) : W6 m ρ c (Proc.devRef .tc main_arg6) = m ((c : Thread nD τ).loc main_arg6) :=
  (W6_of_ne m ρ c main_arg6 (by decide)).trans (before_arg6 m ρ c)

/-- What the second launch finds in its three input arrays. -/
theorem second_agg (c : Dev nD) : W7 m ρ c (Proc.devRef .tc main_v28)
    = aggregate
        (Project.arr (m ((c : Thread nD τ).loc main_arg0))
          (weightTable (m ((c : Thread nD τ).loc main_arg4)) (m ((c : Thread nD τ).loc main_arg5)))
          (normsTable (m ((c : Thread nD τ).loc main_arg2)) (m ((c : Thread nD τ).loc main_arg3))))
        (m ((c : Thread nD τ).loc main_arg2)) (m ((c : Thread nD τ).loc main_arg3)) := by
  show StableHlo.after (hostOps1 (F := Ideal)) (W6 m ρ c) (Proc.devRef .tc main_v28) = _
  rw [between_agg, first_result, first_arg2, first_arg3]

theorem second_norms (c : Dev nD) : W7 m ρ c (Proc.devRef .tc main_v15)
    = normsTable (m ((c : Thread nD τ).loc main_arg2)) (m ((c : Thread nD τ).loc main_arg3)) := by
  show StableHlo.after (hostOps1 (F := Ideal)) (W6 m ρ c) (Proc.devRef .tc main_v15) = _
  rw [between_norms, first_norms]

theorem second_bias (c : Dev nD) : W7 m ρ c (Proc.devRef .tc main_v29) = biasRow (m ((c : Thread nD τ).loc main_arg6)) := by
  show StableHlo.after (hostOps1 (F := Ideal)) (W6 m ρ c) (Proc.devRef .tc main_v29) = _
  rw [between_bias, first_arg6]

/-- THE RESULT BUFFER at the last boundary is the function of the arguments. -/
theorem result_eq (c : Dev nD) : W8 m ρ c (Proc.devRef .tc main_v30) = resultArr m c := by
  refine (W8_arr m ρ c 3).trans ((Combine.final (V7 m ρ) c).trans ?_)
  show Combine.arr (W7 m ρ c (Proc.devRef .tc main_v28)) (W7 m ρ c (Proc.devRef .tc main_v15)) (W7 m ρ c (Proc.devRef .tc main_v29)) = _
  rw [second_agg, second_norms, second_bias]
  rfl

/-- THE RUN: every weakly fair execution terminates without a fault, the result array ends at the function of the
    arguments, and the arguments end as launched. -/
theorem run : θ_run defs (onTc (τ := τ) (main (F := Ideal))) ⟨m, fun _ => 0, ρ⟩ (fun r => ∀ c : Dev nD,
      r.2.mem ((c.tc : Thread nD τ).loc main_v30) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v30 (by decide))).trans (result_eq m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (Whole.run_all m ρ)

end Cert.KernelIdeal.Result

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.Layer.lean ====
/-
  One graph-convolution layer with a residual branch, entry by entry over the extended reals.

  Nodes 0 … N-1 (N = 100000) carry feature rows prev[n, ·] of width 128; the E = 1600000 edges are given by two
  columns of row numbers, src and dst. With in[n] and out[n] the two degree norms of node n, two projections
  P_res = prev · W_res and P_conv = prev · W_conv of width 64, and a bias b, the layer's entry (n, q) is built from
    R[n, q] = z + Σ over edges e landing on n of  P_res [row e, q] · in [row e]      (the residual branch)
    H[n, q] = z + Σ over edges e landing on n of  P_conv[row e, q] · out[row e]      (the convolution)
  where edge e lands on n when its dst number is exactly n, row e is its src number clamped into the table, and z is
  the zero the accumulation starts from. One program scales the two branches together,
    max (in[n] · (R + H) + b[q]) z,
  the other one branch at a time,
    max ((H · in[n] + b[q]) + R · in[n]) z.
  The two agree because in[n] is a NONNEGATIVE REAL, over which multiplication distributes on every pair of
  extended reals, infinite ones included. That in turn holds whatever the degree is: the norm is
  (max 1 d) ^ (-1/2), and max 1 d is a real at least 1, whose power is a positive real, or +∞, whose power is 0.
-/
import Idealize.ShloMosaic.Lib.ValueIdx
import Idealize.ShloMosaic.PureOps.Ideal.Laws
import proofs.«163316_j4011499454859_2_alg».proof.Proof.LibRowGatherScatter

noncomputable section

open scoped BigOperators

namespace Cert.GraphLayer

open Idealize.ShloMosaic Idealize.ShloMosaic.ValueIdx Idealize.ShloMosaic.RowOps

/-! ## The two constants of the degree norm -/

/-- The pattern of 1.0 denotes 1. -/
theorem ofBits_one : Ideal.ofBits .f32 0x3F800000#32 = 1 := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-! ## The degree norm is a nonnegative real -/

/-- (max 1 d) ^ (-1/2) is nonnegative and finite for EVERY extended real d. -/
theorem norm_nonneg_ne_top (d : EReal) :
    0 ≤ Ideal.pow (max 1 d) ((-(1 / 2) : ℝ) : EReal) ∧ Ideal.pow (max 1 d) ((-(1 / 2) : ℝ) : EReal) ≠ ⊤ := by
  have h1 : (1 : EReal) ≤ max 1 d := le_max_left _ _
  generalize max 1 d = t at h1
  induction t using EReal.rec with
  | bot => exact absurd (le_bot_iff.mp h1) (by exact_mod_cast EReal.coe_ne_bot (1 : ℝ))
  | top =>
    rw [Ideal.pow_top]
    have hn : ¬ (0 : EReal) < ((-(1 / 2) : ℝ) : EReal) := by
      rw [not_lt]; exact_mod_cast (by norm_num : (-(1 / 2) : ℝ) ≤ 0)
    have hz : ¬ ((-(1 / 2) : ℝ) : EReal) = 0 := by
      intro h; have : (-(1 / 2) : ℝ) = 0 := by exact_mod_cast h
      norm_num at this
    rw [if_neg hn, if_neg hz]
    exact ⟨le_refl _, EReal.zero_ne_top⟩
  | coe t =>
    have ht : (1 : ℝ) ≤ t := by exact_mod_cast h1
    rw [Ideal.pow_coe_coe]
    exact ⟨EReal.coe_nonneg.mpr (Real.rpow_nonneg (by linarith) _), EReal.coe_ne_top _⟩

/-! ## The law joining the two programs -/

/-- Scaling the two branches together or one at a time: equal when the scale is a nonnegative real. -/
theorem combine_law {a : EReal} (h0 : 0 ≤ a) (ht : a ≠ ⊤) (R H b : EReal) :
    a * (R + H) + b = (H * a + b) + R * a := by
  rw [EReal.left_distrib_of_nonneg_of_ne_top h0 ht, mul_comm a R, mul_comm a H, add_comm (R * a) (H * a), add_right_comm]

/-! ## The layer, entry by entry -/

abbrev Nn : Nat := 100000
abbrev Ne : Nat := 1600000

/-- Row r of a projection prev · W at column q. -/
def proj (prev : (⟨2, ![Nn, 128]⟩ : Shape).Idx → EReal) (W : (⟨2, ![128, 64]⟩ : Shape).Idx → EReal) (r : Fin Nn) (q : Fin 64) : EReal :=
  ∑ k : Fin 128, prev (ix2 r k) * W (ix2 k q)

/-- The sum over the edges landing on node n of a per-node quantity read at each edge's source row, from zero z. -/
def edgeSum (z : EReal) (srcI dstI : IVec ⟨2, ![Ne, 1]⟩ 32) (Y : Fin Nn → EReal) (n : Fin Nn) : EReal :=
  z + ∑ e ∈ Finset.univ.filter (fun e : Fin Ne => (dstI (ix2 e (0 : Fin 1))).toInt = (n.val : ℤ)),
    Y (gatherRow (N := Nn) (by decide) srcI e)

/-- The residual branch's aggregate at (n, q). -/
def aggRes (z : EReal) (nin : (⟨1, ![Nn]⟩ : Shape).Idx → EReal) (srcI dstI : IVec ⟨2, ![Ne, 1]⟩ 32)
    (prev : (⟨2, ![Nn, 128]⟩ : Shape).Idx → EReal) (Wr : (⟨2, ![128, 64]⟩ : Shape).Idx → EReal) (n : Fin Nn) (q : Fin 64) : EReal :=
  edgeSum z srcI dstI (fun r => proj prev Wr r q * nin (ix1 r)) n

/-- The convolution's aggregate at (n, q). -/
def aggConv (z : EReal) (nout : (⟨1, ![Nn]⟩ : Shape).Idx → EReal) (srcI dstI : IVec ⟨2, ![Ne, 1]⟩ 32)
    (prev : (⟨2, ![Nn, 128]⟩ : Shape).Idx → EReal) (Wc : (⟨2, ![128, 64]⟩ : Shape).Idx → EReal) (n : Fin Nn) (q : Fin 64) : EReal :=
  edgeSum z srcI dstI (fun r => proj prev Wc r q * nout (ix1 r)) n

/-- The layer with the two branches scaled together. -/
def fusedEntry (z : EReal) (nin nout : (⟨1, ![Nn]⟩ : Shape).Idx → EReal) (srcI dstI : IVec ⟨2, ![Ne, 1]⟩ 32)
    (prev : (⟨2, ![Nn, 128]⟩ : Shape).Idx → EReal) (Wr Wc : (⟨2, ![128, 64]⟩ : Shape).Idx → EReal)
    (b : (⟨1, ![64]⟩ : Shape).Idx → EReal) (n : Fin Nn) (q : Fin 64) : EReal :=
  max (nin (ix1 n) * (aggRes z nin srcI dstI prev Wr n q + aggConv z nout srcI dstI prev Wc n q) + b (ix1 q)) z

/-- The layer with each branch scaled by itself. -/
def splitEntry (z : EReal) (nin nout : (⟨1, ![Nn]⟩ : Shape).Idx → EReal) (srcI dstI : IVec ⟨2, ![Ne, 1]⟩ 32)
    (prev : (⟨2, ![Nn, 128]⟩ : Shape).Idx → EReal) (Wr Wc : (⟨2, ![128, 64]⟩ : Shape).Idx → EReal)
    (b : (⟨1, ![64]⟩ : Shape).Idx → EReal) (n : Fin Nn) (q : Fin 64) : EReal :=
  max ((aggConv z nout srcI dstI prev Wc n q * nin (ix1 n) + b (ix1 q)) + aggRes z nin srcI dstI prev Wr n q * nin (ix1 n)) z

/-- The two spellings of the layer agree wherever the in-degree norm is a nonnegative real. -/
theorem fused_eq_split (z : EReal) (nin nout : (⟨1, ![Nn]⟩ : Shape).Idx → EReal) (srcI dstI : IVec ⟨2, ![Ne, 1]⟩ 32)
    (prev : (⟨2, ![Nn, 128]⟩ : Shape).Idx → EReal) (Wr Wc : (⟨2, ![128, 64]⟩ : Shape).Idx → EReal)
    (b : (⟨1, ![64]⟩ : Shape).Idx → EReal) (n : Fin Nn) (q : Fin 64)
    (h0 : 0 ≤ nin (ix1 n)) (ht : nin (ix1 n) ≠ ⊤) :
    fusedEntry z nin nout srcI dstI prev Wr Wc b n q = splitEntry z nin nout srcI dstI prev Wr Wc b n q := by
  unfold fusedEntry splitEntry
  rw [combine_law h0 ht]

end Cert.GraphLayer

end
-- ==== Proof.KernelEntry.lean ====
/-
  The kernel program's result, entry by entry, is the layer with the two branches scaled together.

  The first launch's 128-column result holds the residual branch's scaled projection in columns 0 … 63 and the
  convolution's in columns 64 … 127: on the left half the weight table is the residual weights and the lane comparison
  picks the destination column's norm, on the right half the convolution's weights and the source column's norm. The
  gather and the accumulating scatter carry every column through by itself, so the aggregate table holds the residual
  branch's aggregate on the left and the convolution's on the right; the second launch adds the two halves, scales by
  the first norm, adds the bias and clamps. That is the formula named fusedEntry.
-/
import proofs.«163316_j4011499454859_2_alg».proof.Proof.HostSide
import proofs.«163316_j4011499454859_2_alg».proof.Proof.CombineRegion
import proofs.«163316_j4011499454859_2_alg».proof.Proof.Layer
import Idealize.ShloMosaic.Lib.ValueLayout

set_option maxRecDepth 16384

noncomputable section

open scoped BigOperators

namespace Cert.KernelIdeal.Entry

open Cert.KernelIdeal Cert.KernelIdeal.Gen Cert.KernelIdeal.HostSide Cert.GraphLayer
open Idealize.ShloMosaic Idealize.ShloMosaic.TcCoe Idealize.ShloMosaic.ValueIdx Idealize.ShloMosaic.RowOps

variable (x0 : (⟨S100000x128, .f32⟩ : BufTy).Contents (Elt Ideal)) (x2 x3 : (⟨S1600000, .i32⟩ : BufTy).Contents (Elt Ideal))
  (x4 x5 : (⟨S128x64, .f32⟩ : BufTy).Contents (Elt Ideal)) (x6 : (⟨S64, .f32⟩ : BufTy).Contents (Elt Ideal))

/-- The zero every accumulation starts from and the clamp compares with. -/
abbrev z : EReal := Ideal.ofBits .f32 0#32

/-! ## The two tables -/

/-- A vector viewed as a column reads its entry. -/
theorem column_apply (v : (⟨S100000, .f32⟩ : BufTy).Contents (Elt Ideal)) (n : Fin 100000) :
    broadcastInDim S100000x1 ![0] bcast_S100000_S100000x1_0 v (ix2 n (0 : Fin 1)) = v (ix1 n) :=
  broadcastInDim_apply _ bcast_S100000_S100000x1_0 v (ix2 n (0 : Fin 1)) (ix1 n) (fun a => match a with
    | ⟨0, _⟩ => by show n.val = if (100000 : Nat) = 1 then 0 else n.val; rw [if_neg (by decide)])

/-- The norms table's first column is the destination column's norm … -/
theorem norms_first (n : Fin 100000) : normsTable x2 x3 (ix2 n (0 : Fin 2)) = degNorm x3 (ix1 n) := by
  unfold normsTable
  exact (concatenate_pair_apply_left (t := S100000x2) (s₁ := S100000x1) (s₂ := S100000x1) (1 : Fin 2) _ _
    concatenates_S100000x1_S100000x1_S100000x2_d1 (ix2 n (0 : Fin 2)) rfl (ix2 n (0 : Fin 1))
    (fun b => by match b with | ⟨0, _⟩ => rfl | ⟨1, _⟩ => rfl)).trans (column_apply _ n)

/-- … and its second the source column's. -/
theorem norms_second (n : Fin 100000) : normsTable x2 x3 (ix2 n (1 : Fin 2)) = degNorm x2 (ix1 n) := by
  unfold normsTable
  exact (concatenate_pair_apply_right (t := S100000x2) (s₁ := S100000x1) (s₂ := S100000x1) (1 : Fin 2) _ _
    concatenates_S100000x1_S100000x1_S100000x2_d1 (ix2 n (1 : Fin 2)) rfl rfl (ix2 n (0 : Fin 1))
    (fun b hb => by match b with | ⟨0, _⟩ => rfl | ⟨1, _⟩ => exact absurd rfl hb) rfl).trans (column_apply _ n)

/-- The weight table's left half is the residual weights … -/
theorem weights_left (k : Fin 128) (q : Fin 64) :
    weightTable x4 x5 (ix2 k (⟨q.val, by omega⟩ : Fin 128)) = x4 (ix2 k q) := by
  unfold weightTable
  exact concatenate_pair_apply_left (t := S128x128) (s₁ := S128x64) (s₂ := S128x64) (1 : Fin 2) _ _
    concatenates_S128x64_S128x64_S128x128_d1 (ix2 k (⟨q.val, by omega⟩ : Fin 128)) rfl (ix2 k q)
    (fun b => by match b with | ⟨0, _⟩ => rfl | ⟨1, _⟩ => rfl)

/-- … and its right half the convolution's. -/
theorem weights_right (k : Fin 128) (q : Fin 64) :
    weightTable x4 x5 (ix2 k (⟨64 + q.val, by omega⟩ : Fin 128)) = x5 (ix2 k q) := by
  unfold weightTable
  exact concatenate_pair_apply_right (t := S128x128) (s₁ := S128x64) (s₂ := S128x64) (1 : Fin 2) _ _
    concatenates_S128x64_S128x64_S128x128_d1 (ix2 k (⟨64 + q.val, by omega⟩ : Fin 128)) rfl rfl (ix2 k q)
    (fun b hb => by match b with | ⟨0, _⟩ => rfl | ⟨1, _⟩ => exact absurd rfl hb) (by show q.val + 64 = 64 + q.val; omega)

/-- The bias row reads the bias. -/
theorem bias_apply (q : Fin 64) : biasRow x6 (ix2 (0 : Fin 1) q) = x6 (ix1 q) := by
  unfold biasRow
  exact shapeCast_a_1a_apply x6 shapeCasts_S64_S1x64 0 q

/-! ## The first launch's result on its two halves -/

/-- Columns 0 … 63: the residual projection scaled by the destination column's norm. -/
theorem projected_left (r : Fin 100000) (q : Fin 64) :
    Project.arr x0 (weightTable x4 x5) (normsTable x2 x3) (ix2 r (⟨q.val, by omega⟩ : Fin 128))
      = proj x0 x4 r q * degNorm x3 (ix1 r) := by
  show Project.entry x0 (weightTable x4 x5) (normsTable x2 x3) r (⟨q.val, by omega⟩ : Fin 128) = _
  unfold Project.entry proj
  rw [if_pos (show q.val < 64 from q.isLt), norms_first]
  exact congrArg (· * degNorm x3 (ix1 r)) (Finset.sum_congr rfl fun k _ => by rw [weights_left])

/-- Columns 64 … 127: the convolution's projection scaled by the source column's norm. -/
theorem projected_right (r : Fin 100000) (q : Fin 64) :
    Project.arr x0 (weightTable x4 x5) (normsTable x2 x3) (ix2 r (⟨64 + q.val, by omega⟩ : Fin 128))
      = proj x0 x5 r q * degNorm x2 (ix1 r) := by
  show Project.entry x0 (weightTable x4 x5) (normsTable x2 x3) r (⟨64 + q.val, by omega⟩ : Fin 128) = _
  unfold Project.entry proj
  rw [if_neg (show ¬ 64 + q.val < 64 by omega), norms_second]
  exact congrArg (· * degNorm x2 (ix1 r)) (Finset.sum_congr rfl fun k _ => by rw [weights_right])

/-! ## Along the edges -/

/-- The gather's and the scatter's dimension numbers are those of whole rows of a 128-column table. -/
theorem gather_wf : GatherDims.WF ⟨2, ![100000, 128]⟩ ⟨2, ![1600000, 1]⟩ ⟨2, ![1600000, 128]⟩ [1] [0] [] [0] [] 1 ![1, 128] :=
  gather_S100000x128_S1600000x1_S1600000x128_1_0_n_n_0_1_1128.wf
theorem scatter_wf : ScatterDims.WF ⟨2, ![100000, 128]⟩ ⟨2, ![1600000, 1]⟩ ⟨2, ![1600000, 128]⟩ [1] [0] [0] 1 :=
  scatter_S100000x128_S1600000x1_S1600000x128_1_0_0_1.wf

/-- The aggregate table at (n, j): from zero, the sum over the edges landing on n of the table's row at the edge's
    source, column j. -/
theorem aggregate_apply (Y : (⟨S100000x128, .bf16⟩ : BufTy).Contents (Elt Ideal)) (n : Fin 100000) (j : Fin 128) :
    aggregate Y x2 x3 (ix2 n j)
      = z + ∑ e ∈ Finset.univ.filter (fun e : Fin 1600000 => (dstCol x3 (ix2 e (0 : Fin 1))).toInt = (n.val : ℤ)),
          Y (ix2 (gatherRow (N := 100000) (by decide) (srcCol x2) e) j) := by
  unfold aggregate
  show Host.scatterAdd (F := Ideal) (φ := .f32) (rowScatterDims 100000 1600000 128 scatter_wf)
    (broadcastInDim S100000x128 ![] bcast_S_S100000x128 (constant (F := Ideal) S_ .f32 0x00000000#32)) (dstCol x3)
    (extf (F := Ideal) .f32 (Host.gather (rowGatherDims 100000 1600000 128 gather_wf) Y (srcCol x2)) bitsLt_bf16_f32) (ix2 n j) = _
  rw [scatterAdd_rows_apply]
  refine congrArg (z + ·) (Finset.sum_congr rfl fun e _ => ?_)
  show Host.gather (rowGatherDims 100000 1600000 128 gather_wf) Y (srcCol x2) (ix2 e j) = _
  rw [gather_rows_apply (N := 100000) (by decide)]

/-- The left half of the aggregate table is the residual branch's aggregate … -/
theorem aggregate_left (n : Fin 100000) (q : Fin 64) :
    aggregate (Project.arr x0 (weightTable x4 x5) (normsTable x2 x3)) x2 x3 (ix2 n (⟨q.val, by omega⟩ : Fin 128))
      = aggRes z (degNorm x3) (srcCol x2) (dstCol x3) x0 x4 n q := by
  rw [aggregate_apply]
  unfold aggRes edgeSum
  exact congrArg (z + ·) (Finset.sum_congr rfl fun e _ => projected_left x0 x2 x3 x4 x5 _ q)

/-- … and the right half the convolution's. -/
theorem aggregate_right (n : Fin 100000) (q : Fin 64) :
    aggregate (Project.arr x0 (weightTable x4 x5) (normsTable x2 x3)) x2 x3 (ix2 n (⟨64 + q.val, by omega⟩ : Fin 128))
      = aggConv z (degNorm x2) (srcCol x2) (dstCol x3) x0 x5 n q := by
  rw [aggregate_apply]
  unfold aggConv edgeSum
  exact congrArg (z + ·) (Finset.sum_congr rfl fun e _ => projected_right x0 x2 x3 x4 x5 _ q)

/-! ## The result -/

/-- THE KERNEL PROGRAM'S RESULT AT (n, q), as a function of the argument arrays. -/
theorem result_entry (n : Fin 100000) (q : Fin 64) :
    Combine.arr (aggregate (Project.arr x0 (weightTable x4 x5) (normsTable x2 x3)) x2 x3) (normsTable x2 x3) (biasRow x6) (ix2 n q)
      = fusedEntry z (degNorm x3) (degNorm x2) (srcCol x2) (dstCol x3) x0 x4 x5 x6 n q := by
  show Combine.entry (aggregate (Project.arr x0 (weightTable x4 x5) (normsTable x2 x3)) x2 x3) (normsTable x2 x3) (biasRow x6) n q = _
  unfold Combine.entry fusedEntry
  rw [norms_first, aggregate_left, aggregate_right, bias_apply]

end Cert.KernelIdeal.Entry

end
-- ==== Proof.RefEntry.lean ====
/-
  The reference program's result, entry by entry, is the layer with each branch scaled by itself.

  The reference computes the two degree norms, then for each branch: projects the features, scales each row by a norm,
  gathers the scaled rows along the edges' source numbers, sums them into the edges' destination rows, and scales by the
  in-degree norm; the convolution adds the bias; the two branches are added and clamped at zero. Read at entry (n, q),
  operation by operation, that is the formula named splitEntry: the gathers and the accumulating scatters act on
  column q alone, the broadcasts of a norm read the norm of the row, the bias broadcast reads b[q].
-/
import proofs.«163316_j4011499454859_2_alg».proof.Proof.Gen.ReferenceIdeal.Read
import proofs.«163316_j4011499454859_2_alg».proof.Proof.Layer

set_option maxRecDepth 16384

noncomputable section

open scoped BigOperators

namespace Cert.ReferenceIdeal.Entry

open Cert.ReferenceIdeal Cert.ReferenceIdeal.Gen Cert.ReferenceIdeal.Read Cert.GraphLayer
open Idealize.ShloMosaic Idealize.ShloMosaic.TcCoe Idealize.ShloMosaic.ValueIdx Idealize.ShloMosaic.RowOps

variable (x0 : (⟨S100000x128, .f32⟩ : BufTy).Contents (Elt Ideal)) (x2 x3 : (⟨S1600000, .i32⟩ : BufTy).Contents (Elt Ideal))
  (x4 x5 : (⟨S128x64, .f32⟩ : BufTy).Contents (Elt Ideal)) (x6 : (⟨S64, .f32⟩ : BufTy).Contents (Elt Ideal))

/-- The zero every accumulation starts from and the clamp compares with. -/
abbrev z : EReal := Ideal.ofBits .f32 0#32

/-! ## The broadcasts -/

/-- The in-degree norm broadcast over the columns (the convolution's second scaling) reads the row's norm. -/
theorem nin_conv (n : Fin 100000) (q : Fin 64) : val_main_v45 (F := Ideal) x3 (ix2 n q) = val_main_v9 (F := Ideal) x3 (ix1 n) := by
  rw [val_main_v45_apply, val_main_v44_apply]
  exact congrArg (val_main_v9 (F := Ideal) x3) (funext fun a => by match a with | ⟨0, _⟩ => rfl)

/-- The same broadcast, as the residual branch's second scaling. -/
theorem nin_res (n : Fin 100000) (q : Fin 64) : val_main_v28 (F := Ideal) x3 (ix2 n q) = val_main_v9 (F := Ideal) x3 (ix1 n) := by
  rw [val_main_v28_apply, val_main_v27_apply]
  exact congrArg (val_main_v9 (F := Ideal) x3) (funext fun a => by match a with | ⟨0, _⟩ => rfl)

/-- The in-degree norm as the residual branch's first scaling. -/
theorem nin_first (r : Fin 100000) (q : Fin 64) : val_main_v15 (F := Ideal) x3 (ix2 r q) = val_main_v9 (F := Ideal) x3 (ix1 r) := by
  rw [val_main_v15_apply, val_main_v14_apply]
  exact congrArg (val_main_v9 (F := Ideal) x3) (funext fun a => by match a with | ⟨0, _⟩ => rfl)

/-- The out-degree norm as the convolution's first scaling. -/
theorem nout_first (r : Fin 100000) (q : Fin 64) : val_main_v32 (F := Ideal) x2 (ix2 r q) = val_main_v12 (F := Ideal) x2 (ix1 r) := by
  rw [val_main_v32_apply, val_main_v31_apply]
  exact congrArg (val_main_v12 (F := Ideal) x2) (funext fun a => by match a with | ⟨0, _⟩ => rfl)

/-- The bias broadcast over the rows reads b[q]. -/
theorem bias (n : Fin 100000) (q : Fin 64) : val_main_v48 (F := Ideal) x6 (ix2 n q) = x6 (ix1 q) := by
  rw [val_main_v48_apply, val_main_v47_apply]
  exact congrArg x6 (funext fun a => by match a with | ⟨0, _⟩ => rfl)

/-- The three zero splats. -/
theorem zero_res (n : Fin 100000) (q : Fin 64) : val_main_v24 (F := Ideal) (ix2 n q) = z := by rw [val_main_v24_apply]; rfl
theorem zero_conv (n : Fin 100000) (q : Fin 64) : val_main_v41 (F := Ideal) (ix2 n q) = z := by rw [val_main_v41_apply]; rfl
theorem zero_clamp (n : Fin 100000) (q : Fin 64) : val_main_call2_v0 (F := Ideal) (ix2 n q) = z := by rw [val_main_call2_v0_apply]; rfl

/-! ## The projections -/

/-- The residual projection at (r, q). -/
theorem proj_res (r : Fin 100000) (q : Fin 64) : val_main_v13 (F := Ideal) x0 x4 (ix2 r q) = proj x0 x4 r q := by
  rw [val_main_v13_apply]
  unfold proj
  refine Finset.sum_congr rfl fun k _ => ?_
  have hl : lidx_main_v13 (ix2 r q) k = ix2 r k := funext fun a => by match a with | ⟨0, _⟩ => rfl | ⟨1, _⟩ => rfl
  have hr : ridx_main_v13 (ix2 r q) k = ix2 k q := funext fun a => by match a with | ⟨0, _⟩ => rfl | ⟨1, _⟩ => rfl
  rw [hl, hr]

/-- The convolution's projection at (r, q). -/
theorem proj_conv (r : Fin 100000) (q : Fin 64) : val_main_v30 (F := Ideal) x0 x5 (ix2 r q) = proj x0 x5 r q := by
  rw [val_main_v30_apply]
  unfold proj
  refine Finset.sum_congr rfl fun k _ => ?_
  have hl : lidx_main_v30 (ix2 r q) k = ix2 r k := funext fun a => by match a with | ⟨0, _⟩ => rfl | ⟨1, _⟩ => rfl
  have hr : ridx_main_v30 (ix2 r q) k = ix2 k q := funext fun a => by match a with | ⟨0, _⟩ => rfl | ⟨1, _⟩ => rfl
  rw [hl, hr]

/-- The residual branch's scaled rows. -/
theorem scaled_res (r : Fin 100000) (q : Fin 64) :
    val_main_v16 (F := Ideal) x0 x3 x4 (ix2 r q) = proj x0 x4 r q * val_main_v9 (F := Ideal) x3 (ix1 r) := by
  rw [val_main_v16_apply, proj_res, nin_first]; rfl

/-- The convolution's scaled rows. -/
theorem scaled_conv (r : Fin 100000) (q : Fin 64) :
    val_main_v33 (F := Ideal) x0 x2 x5 (ix2 r q) = proj x0 x5 r q * val_main_v12 (F := Ideal) x2 (ix1 r) := by
  rw [val_main_v33_apply, proj_conv, nout_first]; rfl

/-! ## Along the edges -/

/-- The gather's and the scatter's dimension numbers are those of whole rows of a 64-column table. -/
theorem gather_wf : GatherDims.WF ⟨2, ![100000, 64]⟩ ⟨2, ![1600000, 1]⟩ ⟨2, ![1600000, 64]⟩ [1] [0] [] [0] [] 1 ![1, 64] :=
  gather_S100000x64_S1600000x1_S1600000x64_1_0_n_n_0_1_164.wf
theorem scatter_wf : ScatterDims.WF ⟨2, ![100000, 64]⟩ ⟨2, ![1600000, 1]⟩ ⟨2, ![1600000, 64]⟩ [1] [0] [0] 1 :=
  scatter_S100000x64_S1600000x1_S1600000x64_1_0_0_1.wf

/-- The residual branch's rows gathered along the edges. -/
theorem gathered_res (e : Fin 1600000) (q : Fin 64) :
    val_main_v23 (F := Ideal) x0 x2 x3 x4 (ix2 e q)
      = proj x0 x4 (gatherRow (N := Nn) (by decide) (val_main_v22 (F := Ideal) x2) e) q
        * val_main_v9 (F := Ideal) x3 (ix1 (gatherRow (N := Nn) (by decide) (val_main_v22 (F := Ideal) x2) e)) := by
  unfold val_main_v23
  show Host.gather (rowGatherDims 100000 1600000 64 gather_wf)
    (val_main_v16 (F := Ideal) x0 x3 x4) (val_main_v22 (F := Ideal) x2) (ix2 e q) = _
  rw [gather_rows_apply (N := 100000) (by decide)]
  exact scaled_res x0 x3 x4 _ q

/-- The convolution's rows gathered along the edges. -/
theorem gathered_conv (e : Fin 1600000) (q : Fin 64) :
    val_main_v40 (F := Ideal) x0 x2 x5 (ix2 e q)
      = proj x0 x5 (gatherRow (N := Nn) (by decide) (val_main_v39 (F := Ideal) x2) e) q
        * val_main_v12 (F := Ideal) x2 (ix1 (gatherRow (N := Nn) (by decide) (val_main_v39 (F := Ideal) x2) e)) := by
  unfold val_main_v40
  show Host.gather (rowGatherDims 100000 1600000 64 gather_wf)
    (val_main_v33 (F := Ideal) x0 x2 x5) (val_main_v39 (F := Ideal) x2) (ix2 e q) = _
  rw [gather_rows_apply (N := 100000) (by decide)]
  exact scaled_conv x0 x2 x5 _ q

/-- The residual branch's aggregate. -/
theorem agg_res (n : Fin 100000) (q : Fin 64) :
    val_main_v26 (F := Ideal) x0 x2 x3 x4 (ix2 n q)
      = aggRes z (val_main_v9 (F := Ideal) x3) (val_main_v22 (F := Ideal) x2) (val_main_v25 (F := Ideal) x3) x0 x4 n q := by
  unfold val_main_v26
  show Host.scatterAdd (F := Ideal) (φ := .f32) (rowScatterDims 100000 1600000 64 scatter_wf)
    (val_main_v24 (F := Ideal)) (val_main_v25 (F := Ideal) x3) (val_main_v23 (F := Ideal) x0 x2 x3 x4) (ix2 n q) = _
  rw [scatterAdd_rows_apply, zero_res]
  unfold aggRes edgeSum
  exact congrArg (z + ·) (Finset.sum_congr rfl fun e _ => gathered_res x0 x2 x3 x4 e q)

/-- The convolution's aggregate. -/
theorem agg_conv (n : Fin 100000) (q : Fin 64) :
    val_main_v43 (F := Ideal) x0 x2 x3 x5 (ix2 n q)
      = aggConv z (val_main_v12 (F := Ideal) x2) (val_main_v39 (F := Ideal) x2) (val_main_v42 (F := Ideal) x3) x0 x5 n q := by
  unfold val_main_v43
  show Host.scatterAdd (F := Ideal) (φ := .f32) (rowScatterDims 100000 1600000 64 scatter_wf)
    (val_main_v41 (F := Ideal)) (val_main_v42 (F := Ideal) x3) (val_main_v40 (F := Ideal) x0 x2 x5) (ix2 n q) = _
  rw [scatterAdd_rows_apply, zero_conv]
  unfold aggConv edgeSum
  exact congrArg (z + ·) (Finset.sum_congr rfl fun e _ => gathered_conv x0 x2 x5 e q)

/-- The two branches read the same two columns of edge numbers. -/
theorem src_same : val_main_v39 (F := Ideal) x2 = val_main_v22 (F := Ideal) x2 := rfl
theorem dst_same : val_main_v42 (F := Ideal) x3 = val_main_v25 (F := Ideal) x3 := rfl

/-! ## The result -/

/-- THE REFERENCE'S RESULT AT (n, q). -/
theorem result_entry (n : Fin 100000) (q : Fin 64) :
    val_main_v51 (F := Ideal) x0 x2 x3 x4 x5 x6 (ix2 n q)
      = splitEntry z (val_main_v9 (F := Ideal) x3) (val_main_v12 (F := Ideal) x2) (val_main_v22 (F := Ideal) x2)
          (val_main_v25 (F := Ideal) x3) x0 x4 x5 x6 n q := by
  rw [val_main_v51_apply, val_main_v50_apply, val_main_v49_apply, val_main_v46_apply, val_main_v29_apply,
    agg_conv, agg_res, nin_conv, nin_res, bias, zero_clamp, src_same, dst_same]
  rfl

end Cert.ReferenceIdeal.Entry

end
-- ==== Proof.Bridge.lean ====
/-
  The two programs compute one function.

  The kernel program's result is the layer with the two branches scaled together, the reference's the layer with each
  branch scaled by itself; both are stated over the same degree norms and the same two columns of edge numbers, which
  the two programs spell with the same operations. The spellings agree at every entry because the in-degree norm
  (max 1 d) ^ (-1/2) is a nonnegative real whatever the degree d, and a nonnegative real distributes over every sum of
  extended reals. The inputs' finiteness is not needed.
-/
import proofs.«163316_j4011499454859_2_alg».proof.Proof.KernelEntry
import proofs.«163316_j4011499454859_2_alg».proof.Proof.RefEntry

set_option maxRecDepth 16384

noncomputable section

namespace Cert.Bridge

open Cert.GraphLayer Cert.KernelIdeal.HostSide
open Idealize.ShloMosaic Idealize.ShloMosaic.TcCoe Idealize.ShloMosaic.ValueIdx

variable (x0 : (⟨Cert.ReferenceIdeal.S100000x128, .f32⟩ : BufTy).Contents (Elt Ideal))
  (x2 x3 : (⟨Cert.ReferenceIdeal.S1600000, .i32⟩ : BufTy).Contents (Elt Ideal))
  (x4 x5 : (⟨Cert.ReferenceIdeal.S128x64, .f32⟩ : BufTy).Contents (Elt Ideal)) (x6 : (⟨Cert.ReferenceIdeal.S64, .f32⟩ : BufTy).Contents (Elt Ideal))

/-! ## One spelling of the norms and of the edge columns -/

theorem norm_in_same : degNorm x3 = Cert.ReferenceIdeal.Read.val_main_v9 (F := Ideal) x3 := rfl
theorem norm_out_same : degNorm x2 = Cert.ReferenceIdeal.Read.val_main_v12 (F := Ideal) x2 := rfl
theorem src_same : srcCol x2 = Cert.ReferenceIdeal.Read.val_main_v22 (F := Ideal) x2 := rfl
theorem dst_same : dstCol x3 = Cert.ReferenceIdeal.Read.val_main_v25 (F := Ideal) x3 := rfl

/-! ## The in-degree norm is a nonnegative real -/

theorem norm_fact (n : Fin 100000) :
    0 ≤ Cert.ReferenceIdeal.Read.val_main_v9 (F := Ideal) x3 (ix1 n) ∧ Cert.ReferenceIdeal.Read.val_main_v9 (F := Ideal) x3 (ix1 n) ≠ ⊤ := by
  rw [Cert.ReferenceIdeal.Read.val_main_v9_apply, Cert.ReferenceIdeal.Read.val_main_v7_apply,
    Cert.ReferenceIdeal.Read.val_main_v8_apply, Cert.ReferenceIdeal.Read.val_main_call0_v1_apply]
  show 0 ≤ Ideal.pow (max (Ideal.ofBits .f32 0x3F800000#32) (Cert.ReferenceIdeal.Read.val_main_v3 (F := Ideal) x3 (ix1 n)))
        (Ideal.ofBits .f32 0xBF000000#32)
      ∧ Ideal.pow (max (Ideal.ofBits .f32 0x3F800000#32) (Cert.ReferenceIdeal.Read.val_main_v3 (F := Ideal) x3 (ix1 n)))
        (Ideal.ofBits .f32 0xBF000000#32) ≠ ⊤
  rw [ofBits_one, ofBits_neg_half]
  exact norm_nonneg_ne_top _

/-! ## The two result arrays -/

/-- The kernel program's result array, as a function of the arguments, is the reference's. -/
theorem result_same :
    Cert.KernelIdeal.Combine.arr
        (aggregate (Cert.KernelIdeal.Project.arr x0 (weightTable x4 x5) (normsTable x2 x3)) x2 x3)
        (normsTable x2 x3) (biasRow x6)
      = Cert.ReferenceIdeal.Read.val_main_v51 (F := Ideal) x0 x2 x3 x4 x5 x6 := by
  funext i
  obtain ⟨n, q, rfl⟩ : ∃ (n : Fin 100000) (q : Fin 64), i = ix2 n q := ⟨i 0, i 1, eq_ix2 i⟩
  rw [Cert.KernelIdeal.Entry.result_entry, Cert.ReferenceIdeal.Entry.result_entry,
    norm_in_same, norm_out_same, src_same, dst_same]
  exact fused_eq_split _ _ _ _ _ _ _ _ _ n q (norm_fact x3 n).1 (norm_fact x3 n).2

end Cert.Bridge

end
-- ==== Proof.lean ====
/-
  A graph-convolution layer with a residual branch: a two-launch kernel program against its array reference, over
  the extended reals.

  Both programs compute, for each of 100000 nodes and 64 output features, the clamped sum of two aggregates over the
  incoming edges — a residual projection and a convolution's projection of the neighbours' features, each row scaled
  by a degree norm — scaled once more by the node's in-degree norm, plus a bias. The kernel program does the two
  projections as one 128-column product, carries the two branches side by side through one gather and one accumulating
  scatter, and scales their sum; the reference treats each branch by itself. The proof reads each program's result at
  an entry (the gathers and scatters act column by column; each launch's output blocks tile its array) and joins the
  two readings by the one law that a nonnegative real distributes over sums of extended reals, the in-degree norm
  being such a real for every degree. No float operation was rewritten when the kernel program was idealized, and the
  three runs terminate leaving the arguments as launched.
-/
import proofs.«163316_j4011499454859_2_alg».proof.Defs
import proofs.«163316_j4011499454859_2_alg».proof.Proof.Gen.Kernel
import proofs.«163316_j4011499454859_2_alg».proof.Proof.Gen.Kernel.Skeleton
import proofs.«163316_j4011499454859_2_alg».proof.Proof.Gen.Kernel.Launch
import proofs.«163316_j4011499454859_2_alg».proof.Proof.Gen.Kernel.Points
import proofs.«163316_j4011499454859_2_alg».proof.Proof.Gen.Kernel.Frame
import proofs.«163316_j4011499454859_2_alg».proof.Proof.Gen.KernelIdeal
import proofs.«163316_j4011499454859_2_alg».proof.Proof.Gen.KernelIdeal.Skeleton
import proofs.«163316_j4011499454859_2_alg».proof.Proof.Gen.KernelIdeal.Launch
import proofs.«163316_j4011499454859_2_alg».proof.Proof.Gen.KernelIdeal.Points
import proofs.«163316_j4011499454859_2_alg».proof.Proof.Gen.KernelIdeal.Frame
import proofs.«163316_j4011499454859_2_alg».proof.Proof.Gen.ReferenceIdeal
import proofs.«163316_j4011499454859_2_alg».proof.Proof.Gen.ReferenceIdeal.Run
import proofs.«163316_j4011499454859_2_alg».proof.Proof.Gen.ReferenceIdeal.Read
import proofs.«163316_j4011499454859_2_alg».proof.Proof.Gen.Pre_finite_inputs
import proofs.«163316_j4011499454859_2_alg».proof.Proof.KernelResult
import proofs.«163316_j4011499454859_2_alg».proof.Proof.Bridge
import Idealize.ShloMosaic.Adequacy
import Idealize.ShloMosaic.Init

noncomputable section

namespace Cert.Proof

open Idealize.ShloMosaic Idealize.SL.Sem

/-- The word-level kernel program runs and leaves its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same result array: the kernel program's
    result as a function of the arguments, which is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.resultArr m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v51_eq, a0, a2, a3, a4, a5, a6]
  exact (Cert.Bridge.result_same _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
